-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x64, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_13 : Index := 0#32
  ![v21.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x16, .f32⟩
  | .hbm, ⟨29, _⟩ => ⟨S10000x16, .f32⟩
  | .hbm, ⟨30, _⟩ => ⟨S10000x16, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1, .f32⟩
  | .hbm, ⟨35, _⟩ => ⟨S10000x16, .f32⟩
  | .hbm, ⟨36, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v14 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BitsBody.Cases.lean ====
/-
  The three phases of the fused two-layer graph convolution, as conditions on the grid coordinate.

  The grid has 50 points. Point 0 computes the first projection s1 = x · W1 into the first scratch buffer;
  every point t < 25 computes rows [400 t, 400 t + 400) of H = max(adj · s1 + b1, 0) · W2 into the second
  scratch buffer; every point t ≥ 25 reads all of H and stores block t - 25 of log_softmax(adj · H + b2).
  This module decides the body's three branch conditions over the grid, names the staging memrefs the
  body is called with at a point, and spells the region's invariant over the two scratch buffers.
-/
import proofs.«118411_g40973988004062_cont_8to1_b_1328_5_alg».proof.Proof.Gen.Kernel.Launch
import proofs.«118411_g40973988004062_cont_8to1_b_1328_5_alg».proof.Proof.Gen.Kernel.Skeleton
import proofs.«118411_g40973988004062_cont_8to1_b_1328_5_alg».proof.Proof.Gen.Kernel.Points
import proofs.«118411_g40973988004062_cont_8to1_b_1328_5_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grid -/

/-- The first branch (the projection s1 = x · W1 is computed and stored): taken when the coordinate is 0. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The second branch (a slice of 400 rows of H is computed and stored): taken at the coordinates below 25. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The third branch (a block of the result is computed from all of H and stored): taken from coordinate 25 on. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

/-- The rows the slice of point t starts at: 400 t, column 0. -/
theorem fill_off : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are live, and when the result's block is written back -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The result's window is idle exactly while H is being filled. -/
theorem idle_6 : ∀ t : Fin cfg0.N, cfg0.idle 6 (grid0.coords t) = decide (t.val < 25) :=
  (by decide +kernel : ∀ t : Fin grid0.N, cfg0.idle 6 (grid0.coords t) = decide (t.val < 25))
/-- The result's block is written back after every point from 25 on, and after no earlier one. -/
theorem flush_6 : ∀ t : Fin cfg0.N, (cfg0.win 6).flush t = decide (25 ≤ t.val) :=
  (by decide +kernel : ∀ t : Fin grid0.N, win0_6.flush t = decide (25 ≤ t.val))
/-- The block written back after point t ≥ 25 is block t - 25 of the result. -/
theorem index_6 : ∀ t : Fin cfg0.N, 25 ≤ t.val → (cfg0.win 6).index t = ![t.val - 25, 0] :=
  (by decide +kernel : ∀ t : Fin grid0.N, 25 ≤ t.val → win0_6.index t = ![t.val - 25, 0])
/-- The block of the adjacency matrix fetched at point t is block t mod 25. -/
theorem index_1 : ∀ t : Fin cfg0.N, (cfg0.win 1).index t = ![t.val % 25, 0] :=
  (by decide +kernel : ∀ t : Fin grid0.N, win0_1.index t = ![t.val % 25, 0])

/-! ## The memrefs the body is called with -/

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S64x16 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x16 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S400x16 .f32 := win0_6.stage (cfg0.slots t 6)
abbrev hs_6 (t : Fin cfg0.N) : (ms_6 t).IsWhole := hstage0_6 ((cfg0.slots t 6).cast nbuf0_6)
/-- The scratch buffer of the projection s1 (10000 × 64) and the scratch buffer of H (10000 × 16). -/
abbrev projM : Memref sig .tc .vmem S10000x64 .f32 := Memref.whole cc0_scratch0
abbrev hidM : Memref sig .tc .vmem S10000x16 .f32 := Memref.whole cc0_scratch1

/-- The region's invariant as the launch hands it over: both scratch buffers at some contents, the generator
    register at some state. -/
theorem PhiA_eq (c : Dev nD) :
    (Pipeline.ΦA spec0 c : sProp 𝕄)
      = iprop(iprop((∃ d, owns (c : Thread nD τ) projM fullShare d) ∗ (∃ d, owns (c : Thread nD τ) hidM fullShare d)) ∗ (∃ r, prngReg c r)) := by
  unfold Pipeline.ΦA; rw [scopedRest0_eq]; simp only [projM, hidM, owns_whole]; try rfl

end Cert.Kernel.Body

end
-- ==== Proof.LibPrefixFill.lean ====
/-
  A two-dimensional buffer filled R whole rows per step, never initialised.

  A buffer that a loop or a grid fills one slice of R rows per step, step t storing rows [R t, R t + R), holds
  nothing known at the start; after t steps its contents are SOME array that agrees with the target G on the rows
  below R t. This file states that invariant's step (agreement below R t, the target's values written on rows
  [R t, R t + R), everything else kept, give agreement below R (t + 1)) and its end (agreement below a bound that
  is at least the number of rows is equality). Any element type; nothing is assumed of what the buffer held.
-/
import Idealize.ShloMosaic.Lib.ValueIdx

namespace Cert.PrefixFill

open Idealize.ShloMosaic Idealize.ShloMosaic.ValueIdx

variable {α : Type} {N C : ℕ}

/-- Contents d agree with the target G on the rows below b. -/
def AgreesBelow (G d : (⟨2, ![N, C]⟩ : Shape).Idx → α) (b : ℕ) : Prop :=
  ∀ y : (⟨2, ![N, C]⟩ : Shape).Idx, (y 0).val < b → d y = G y

/-- Nothing is asked below row 0. -/
theorem agreesBelow_zero (G d : (⟨2, ![N, C]⟩ : Shape).Idx → α) : AgreesBelow G d 0 :=
  fun _ h => absurd h (Nat.not_lt_zero _)

/-- One step: the rows [R t, R t + R) now hold the target, the other rows what they held. -/
theorem agreesBelow_step {R : ℕ} (G dOld dNew : (⟨2, ![N, C]⟩ : Shape).Idx → α) (t : ℕ)
    (hold : AgreesBelow G dOld (R * t))
    (hmem : ∀ y : (⟨2, ![N, C]⟩ : Shape).Idx, R * t ≤ (y 0).val → (y 0).val < R * t + R → dNew y = G y)
    (hnot : ∀ y : (⟨2, ![N, C]⟩ : Shape).Idx, ((y 0).val < R * t ∨ R * t + R ≤ (y 0).val) → dNew y = dOld y) :
    AgreesBelow G dNew (R * (t + 1)) := by
  intro y hy
  by_cases h : (y 0).val < R * t
  · rw [hnot y (Or.inl h)]; exact hold y h
  · exact hmem y (Nat.le_of_not_lt h) (by rw [Nat.mul_succ] at hy; exact hy)

/-- The end: agreement below a bound no row reaches is equality. -/
theorem eq_of_agreesBelow (G d : (⟨2, ![N, C]⟩ : Shape).Idx → α) {b : ℕ} (h : AgreesBelow G d b) (hb : N ≤ b) : d = G :=
  funext fun y => h y (Nat.lt_of_lt_of_le (idx2_lt0 y) hb)

end Cert.PrefixFill
-- ==== Proof.BitsBody.Data.lean ====
/-
  What the fused kernel computes, stated over the arrays as the region finds them, and the proof data of its
  pipeline.

  proj is the projection s1 = x · W1 (the first scratch buffer after point 0); hidSlice t is the 400 rows of
  H = max(adj · s1 + b1, 0) · W2 that point t < 25 computes from block t of the adjacency matrix; hid is all of H,
  row r taken from the slice of point r / 400; outBlk t is the block of log_softmax(adj · H + b2) that point
  t ≥ 25 computes from block t of the adjacency matrix and all of H.

  Between points the region's invariant holds the first scratch buffer at proj and the second at SOME contents
  that agree with hid on the rows stored so far (the buffer is never initialised, so what its other rows hold is
  not known, and not needed: the emitting phase starts when every row has been stored).
-/
import proofs.«118411_g40973988004062_cont_8to1_b_1328_5_alg».proof.Proof.BitsBody.Cases
import Idealize.ShloMosaic.Lib.ValueIdx
import proofs.«118411_g40973988004062_cont_8to1_b_1328_5_alg».proof.Proof.LibPrefixFill

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t0 : Fin cfg0.N := ⟨0, lt_of_lt_of_eq (by omega : 0 < 50) N_0.symm⟩

/-- s1 = x · W1, from the blocks of x and W1 (the whole arrays) at the first point. -/
def proj (c : Dev nD) : Vec F S10000x64 .f32 := k0_pay1 (iblk m c 0 t0) (iblk m c 2 t0)

/-- The 400 rows of H that point t computes: max(adj_t · s1 + b1, 0) · W2. -/
def hidSlice (c : Dev nD) (t : Fin cfg0.N) : Vec F S400x16 .f32 :=
  k0_pay2 (iblk m c 1 t) (proj m c) (iblk m c 3 t) (iblk m c 4 t)

/-- The point whose slice holds row y 0 of H: y 0 / 400. -/
def ptOf (y : S10000x16.Idx) : Fin cfg0.N :=
  ⟨(y 0).val / 400, lt_of_lt_of_eq (by have := idx2_lt0 y; omega : (y 0).val / 400 < 50) N_0.symm⟩
/-- and the place of (y 0, y 1) inside that slice: row y 0 mod 400. -/
def rowIn (y : S10000x16.Idx) : S400x16.Idx :=
  ix2 (⟨(y 0).val % 400, Nat.mod_lt _ (by omega)⟩ : Fin 400) (⟨(y 1).val, idx2_lt1 y⟩ : Fin 16)

/-- All of H, row by row from the slices. -/
def hid (c : Dev nD) : Vec F S10000x16 .f32 := fun y => hidSlice m c (ptOf y) (rowIn y)

/-- The block of the result that point t computes: the row-wise log-softmax of adj_t · H + b2. -/
def outBlk (c : Dev nD) (t : Fin cfg0.N) : Vec F S400x16 .f32 :=
  k0_pay3 (iblk m c 1 t) (hid m c) (iblk m c 5 t)

/-- Contents d of the second scratch buffer agree with H on the rows below 400 n. -/
def AgreesBelow (c : Dev nD) (n : ℕ) (d : Vec F S10000x16 .f32) : Prop :=
  Cert.PrefixFill.AgreesBelow (hid m c) d (400 * n)

/-- The region's invariant before position n: at the start the launch's (both scratch buffers at anything);
    afterwards the first scratch buffer at s1 and the second agreeing with H on the rows stored so far. -/
def PhiS (c : Dev nD) : (n : ℕ) → n ≤ cfg0.N → sProp 𝕄
  | 0, _ => Pipeline.ΦA spec0 c
  | n + 1, _ => iprop(iprop(owns (c : Thread nD τ) projM fullShare (proj m c) ∗ (∃ d, ⌜AgreesBelow m c (n + 1) d⌝ ∗ owns (c : Thread nD τ) hidM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) projM fullShare (proj m c) ∗ (∃ d, ⌜AgreesBelow m c (n + 1) d⌝ ∗ owns (c : Thread nD τ) hidM fullShare d)) ∗ (∃ r, prngReg c r)) := rfl

theorem PhiS_pos (c : Dev nD) (n : ℕ) (h : n ≤ cfg0.N) (hz : n ≠ 0) :
    PhiS m c n h = iprop(iprop(owns (c : Thread nD τ) projM fullShare (proj m c) ∗ (∃ d, ⌜AgreesBelow m c n d⌝ ∗ owns (c : Thread nD τ) hidM fullShare d)) ∗ (∃ r, prngReg c r)) := by
  cases n with
  | zero => exact absurd rfl hz
  | succ n => rfl

/-- The proof data of the pipeline on core c: the arrays as the region finds them; every input's buffer left at its
    block, the result's buffer at the block the point computes (consulted only from point 25 on: before that the
    window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Body

end
-- ==== Proof.BitsBody.RunFirst.lean ====
/-
  The body at point 0: the projection s1 = x · W1 is computed and stored over the whole first scratch buffer,
  then read back; the first block of 400 rows of the adjacency matrix is multiplied with it, the bias row added,
  the rectifier applied, the result multiplied with W2, and the 400 × 16 product stored over rows [0, 400) of the
  second scratch buffer. The pieces both scratch buffers end with are found by running the body.
-/
import proofs.«118411_g40973988004062_cont_8to1_b_1328_5_alg».proof.Proof.BitsBody.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at the first point: every buffer handed over at named contents, the inputs and the
    result's buffer handed back untouched, the two scratch buffers with the found pieces written over what
    they held. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    Σ' (LP : List (View.Piece (Elt F) S10000x64 .f32)), { LH : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread xp) LP) ∗ (arg9.view.loc (c : Thread nD τ) ↦[arg9.view.set]{fullShare} arg9.view.writes (Elt F) (harg9.unread xh) LH)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HP]
    · iexact HP
    iexact HH

end Cert.Kernel.Body

end
-- ==== Proof.BitsBody.RunFill.lean ====
/-
  The body at a point 0 < t < 25: the block of 400 rows of the adjacency matrix is multiplied with the
  projection s1 held in the first scratch buffer, the bias row added, the rectifier applied, the result
  multiplied with W2, and the 400 × 16 product stored over rows [400 t, 400 t + 400) of the second scratch
  buffer; nothing else is written. The list of pieces the second scratch buffer ends with is found by running
  the body.
-/
import proofs.«118411_g40973988004062_cont_8to1_b_1328_5_alg».proof.Proof.BitsBody.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in the filling phase after the first point: every buffer handed over at named contents,
    the inputs, the result's buffer and the projection handed back untouched, the buffer of H with the found
    pieces written over what it held. -/
noncomputable def runFill (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    { LH : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ (arg9.view.loc (c : Thread nD τ) ↦[arg9.view.set]{fullShare} arg9.view.writes (Elt F) (harg9.unread xh) LH)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HP]
    · iexists _; isplitr; · ipureintro; exact harg8.read_unread _
      iexact HP
    iexact HH

end Cert.Kernel.Body

end
-- ==== Proof.BitsBody.RunEmit.lean ====
/-
  The body at a point t ≥ 25: the block of 400 rows of the adjacency matrix is multiplied with all of H, read
  from the second scratch buffer, the bias row added, and each row's log-softmax (the row less its maximum, less
  the logarithm of the sum of the exponentials of that) stored over the whole of the result's staging buffer; the
  scratch buffers are only read. The pieces the result's buffer ends with are found by running the body.
-/
import proofs.«118411_g40973988004062_cont_8to1_b_1328_5_alg».proof.Proof.BitsBody.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in the emitting phase: every buffer handed over at named contents, the inputs and both
    scratch buffers handed back untouched, the result's buffer with the found pieces written over what it held. -/
noncomputable def runEmit (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : ¬inFill i) (hc2 : inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    { LO : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread x6) LO) ∗ owns (c : Thread nD τ) arg8 fullShare xp ∗ owns (c : Thread nD τ) arg9 fullShare xh) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexact H6
    isplitl [HP]
    · iexists _; isplitr; · ipureintro; exact harg8.read_unread _
      iexact HP
    iexists _; isplitr; · ipureintro; exact harg9.read_unread _
    iexact HH

end Cert.Kernel.Body

end
-- ==== Proof.BitsBody.Pieces.lean ====
/-
  What the three phases leave in the buffers they store into, read back.

  A load through the whole-shape rectangle of a whole buffer reads the buffer's contents, so each found piece's
  payload is the phase's arithmetic applied to the contents the buffers were handed over at. The filling phases
  store ONE piece, 400 whole rows starting at the row the grid coordinate chooses: inside those rows the second
  scratch buffer reads the new slice, outside them what it held. The first phase's piece in the first scratch
  buffer and the emitting phase's piece in the result's buffer cover their buffers.
-/
import proofs.«118411_g40973988004062_cont_8to1_b_1328_5_alg».proof.Proof.BitsBody.RunFirst
import proofs.«118411_g40973988004062_cont_8to1_b_1328_5_alg».proof.Proof.BitsBody.RunFill
import proofs.«118411_g40973988004062_cont_8to1_b_1328_5_alg».proof.Proof.BitsBody.RunEmit
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-! ## The filling phase after the first point -/

/-- Inside the 400 rows the point stores, the second scratch buffer reads the new slice. -/
theorem fill_read_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx) (x : S400x16.Idx)
    (hx0 : (y 0).val = o + (x 0).val) (hx1 : (y 1).val = (x 1).val) :
    arg9.view.read (Elt F) (arg9.view.writes (Elt F) (harg9.unread xh) (runFill c i arg1 harg1 arg2 harg2 arg3 harg3 arg4 harg4 arg5 harg5 arg6 harg6 arg7 harg7 arg8 harg8 arg9 harg9 hc0 hc1 hc2 x0 x1 x2 x3 x4 x5 x6 xp xh).1) y
      = k0_pay2 x1 xp x3 x4 x := by
  unfold runFill
  dsimp only
  refine (View.read_writes_cons_rows_of_mem arg9.view _ _ _ [] y x ho hx0 hx1).trans ?_
  simp only [View.readAt_eq_ld, harg2.read_unread, harg8.read_unread, harg4.read_unread, harg5.read_unread,
    View.ld_unit_zero (S := S400x10000) zeros2, View.ld_unit_zero (S := S10000x64) zeros2,
    View.ld_unit_zero (S := S1x64) zeros2, View.ld_unit_zero (S := S64x16) zeros2]

/-- Outside them it reads what it held. -/
theorem fill_read_not_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx)
    (h : (y 0).val < o ∨ o + 400 ≤ (y 0).val) :
    arg9.view.read (Elt F) (arg9.view.writes (Elt F) (harg9.unread xh) (runFill c i arg1 harg1 arg2 harg2 arg3 harg3 arg4 harg4 arg5 harg5 arg6 harg6 arg7 harg7 arg8 harg8 arg9 harg9 hc0 hc1 hc2 x0 x1 x2 x3 x4 x5 x6 xp xh).1) y = xh y := by
  unfold runFill
  dsimp only
  refine (View.read_writes_cons_rows_of_not_mem arg9.view _ _ _ [] y ho rfl h).trans ?_
  rw [View.writes_nil, harg9.read_unread]

/-! ## The first point -/

/-- The first scratch buffer after the first point reads s1 = x · W1, whatever it held. -/
theorem first_read_proj (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    arg8.view.read (Elt F) (arg8.view.writes (Elt F) (harg8.unread xp) (runFirst c i arg1 harg1 arg2 harg2 arg3 harg3 arg4 harg4 arg5 harg5 arg6 harg6 arg7 harg7 arg8 harg8 arg9 harg9 hc0 hc1 hc2 x0 x1 x2 x3 x4 x5 x6 xp xh).1) = k0_pay1 x0 x2 := by
  unfold runFirst
  dsimp only
  sl_unfold_run_names
  funext y
  refine (View.read_writes_cons_rows_of_mem arg8.view _ _ _ [] y y rfl (Nat.zero_add _).symm rfl).trans ?_
  simp only [View.readAt_eq_ld, harg1.read_unread, harg3.read_unread,
    View.ld_unit_zero (S := S10000x128) zeros2, View.ld_unit_zero (S := S128x64) zeros2]

/-- Inside rows [o, o + 400) the second scratch buffer reads the first slice, computed from the s1 just stored. -/
theorem first_read_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx) (x : S400x16.Idx)
    (hx0 : (y 0).val = o + (x 0).val) (hx1 : (y 1).val = (x 1).val) :
    arg9.view.read (Elt F) (arg9.view.writes (Elt F) (harg9.unread xh) (runFirst c i arg1 harg1 arg2 harg2 arg3 harg3 arg4 harg4 arg5 harg5 arg6 harg6 arg7 harg7 arg8 harg8 arg9 harg9 hc0 hc1 hc2 x0 x1 x2 x3 x4 x5 x6 xp xh).2.1) y
      = k0_pay2 x1 (k0_pay1 x0 x2) x3 x4 x := by
  unfold runFirst
  dsimp only
  sl_unfold_run_names
  refine (View.read_writes_cons_rows_of_mem arg9.view _ _ _ [] y x ho hx0 hx1).trans ?_
  rw [View.readCov_unit_zero (S := S10000x64) _ zeros2]
  simp only [View.readAt_eq_ld, harg1.read_unread, harg2.read_unread, harg3.read_unread, harg4.read_unread, harg5.read_unread,
    View.ld_unit_zero (S := S400x10000) zeros2, View.ld_unit_zero (S := S10000x128) zeros2, View.ld_unit_zero (S := S128x64) zeros2,
    View.ld_unit_zero (S := S1x64) zeros2, View.ld_unit_zero (S := S64x16) zeros2]

/-- Outside them it reads what it held. -/
theorem first_read_not_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx)
    (h : (y 0).val < o ∨ o + 400 ≤ (y 0).val) :
    arg9.view.read (Elt F) (arg9.view.writes (Elt F) (harg9.unread xh) (runFirst c i arg1 harg1 arg2 harg2 arg3 harg3 arg4 harg4 arg5 harg5 arg6 harg6 arg7 harg7 arg8 harg8 arg9 harg9 hc0 hc1 hc2 x0 x1 x2 x3 x4 x5 x6 xp xh).2.1) y = xh y := by
  unfold runFirst
  dsimp only
  sl_unfold_run_names
  refine (View.read_writes_cons_rows_of_not_mem arg9.view _ _ _ [] y ho rfl h).trans ?_
  rw [View.writes_nil, harg9.read_unread]

/-! ## The emitting phase -/

/-- The result's buffer after an emitting point reads the block computed from the adjacency block, the contents of
    the second scratch buffer and the bias row, whatever it held. -/
theorem emit_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : ¬inFill i) (hc2 : inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    arg7.view.read (Elt F) (arg7.view.writes (Elt F) (harg7.unread x6) (runEmit c i arg1 harg1 arg2 harg2 arg3 harg3 arg4 harg4 arg5 harg5 arg6 harg6 arg7 harg7 arg8 harg8 arg9 harg9 hc0 hc1 hc2 x0 x1 x2 x3 x4 x5 x6 xp xh).1) = k0_pay3 x1 xh x5 := by
  unfold runEmit
  dsimp only
  funext y
  refine (View.read_writes_cons_rows_of_mem arg7.view _ _ _ [] y y rfl (Nat.zero_add _).symm rfl).trans ?_
  simp only [View.readAt_eq_ld, harg2.read_unread, harg9.read_unread, harg6.read_unread,
    View.ld_unit_zero (S := S400x10000) zeros2, View.ld_unit_zero (S := S10000x16) zeros2, View.ld_unit_zero (S := S1x16) zeros2]

end Cert.Kernel.Body

end
-- ==== Proof.BitsBody.Sound.lean ====
/-
  The body obligation of the fused kernel's pipeline, the run of @main, and the frame.

  At every point the body is handed the invariant, the inputs' buffers at their blocks and the result's buffer,
  and runs in the phase the point is in. At point 0 it turns the launch's invariant (both scratch buffers at
  anything) into: s1 in the first, rows [0, 400) of H in the second. At a point 0 < t < 25 it adds rows
  [400 t, 400 t + 400) of H. At a point t ≥ 25 every row of H has been stored, so the second scratch buffer
  holds exactly H and the result's buffer is left at the block computed from it. While H is being filled the
  result's window is idle: its buffer is handed back as it was found.
-/
import proofs.«118411_g40973988004062_cont_8to1_b_1328_5_alg».proof.Proof.BitsBody.Data
import proofs.«118411_g40973988004062_cont_8to1_b_1328_5_alg».proof.Proof.BitsBody.Pieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows of H stored so far -/

/-- Storing the slice of point t over contents that agree with H below row 400 t gives contents that agree with
    H below row 400 (t + 1). -/
theorem agrees_step (c : Dev nD) (t : Fin cfg0.N) (dOld dNew : Vec F S10000x16 .f32)
    (hold : AgreesBelow m c t.val dOld)
    (hmem : ∀ (y : S10000x16.Idx) (x : S400x16.Idx), (y 0).val = 400 * t.val + (x 0).val → (y 1).val = (x 1).val →
      dNew y = hidSlice m c t x)
    (hnot : ∀ y : S10000x16.Idx, ((y 0).val < 400 * t.val ∨ 400 * t.val + 400 ≤ (y 0).val) → dNew y = dOld y) :
    AgreesBelow m c (t.val + 1) dNew :=
  Cert.PrefixFill.agreesBelow_step (R := 400) (hid m c) dOld dNew t.val hold
    (fun y h1 h2 => by
      have hp : ptOf y = t := Fin.ext (by show (y 0).val / 400 = t.val; omega)
      rw [hmem y (rowIn y) (by show (y 0).val = 400 * t.val + (y 0).val % 400; omega) rfl]
      show hidSlice m c t (rowIn y) = hidSlice m c (ptOf y) (rowIn y)
      rw [hp])
    hnot

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  have hN : t.val < 50 := lt_of_lt_of_eq t.isLt N_0
  by_cases hlt : t.val < 25
  · -- H is being filled: the result's window is idle and is not written back
    rw [(dats m 0 c).leavesExact_idle 6 t (by rw [idle_6 t]; exact decide_eq_true hlt)
      (by rw [flush_6 t]; exact decide_eq_false (by omega))]
    by_cases hz : t.val = 0
    · -- the first point
      rw [Phi_castSucc m c t, PhiS_zero m c _ _ hz, PhiA_eq]
      iintro ⟨⟨⟨⟨%dp, HP⟩, ⟨%dh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ ((atFirst_iff t).mpr hz) ((inFill_iff t).mpr hlt) (fun h => absurd ((inEmit_iff t).mp h) (by omega)) (iblk m c 0 t) (iblk m c 1 t) (iblk m c 2 t) (iblk m c 3 t) (iblk m c 4 t) (iblk m c 5 t) ((dats m 0 c).before 6 t d6) dp dh).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HH]; · iexact HH
      iintro ⟨H0, H1, H2, H3, H4, H5, H6, HP, HH⟩
      isplitl [HP HH Hg]
      · isplitl [HP HH]
        · isplitl [HP]
          · unfold owns; iexists _; isplitr; swap; · iexact HP
            ipureintro
            obtain rfl : t = t0 := Fin.ext hz
            exact first_read_proj c _ _ _ _ _ _ _ _ _ _ _ _ _ _ _ _ _ _ _ _ _ _ _ _ _ _ _ _ _ _ _
          iexists _; isplitr; swap
          · unfold owns; iexists _; isplitr; swap; · iexact HH
            ipureintro; rfl
          ipureintro
          obtain rfl : t = t0 := Fin.ext hz
          refine agrees_step m c t0 dh _ (fun y hy => absurd hy (by show ¬ (y 0).val < 400 * 0; omega)) (fun y x hx0 hx1 => ?_) (fun y hy => ?_)
          · exact first_read_mem c _ _ _ _ _ _ _ _ _ _ _ _ _ _ _ _ _ _ _ _ _ _ _ _ _ _ _ _ _ _ _ (fill_off t0 hlt) y x hx0 hx1
          · exact first_read_not_mem c _ _ _ _ _ _ _ _ _ _ _ _ _ _ _ _ _ _ _ _ _ _ _ _ _ _ _ _ _ _ _ (fill_off t0 hlt) y hy
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later filling point
      rw [Phi_castSucc m c t, PhiS_pos m c _ _ hz]
      iintro ⟨⟨⟨HP, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFill c (grid0.coords t) _ _ _ _ _ _ _ _ _ _ _ _ _ _ _ _ _ _ (fun h => hz ((atFirst_iff t).mp h)) ((inFill_iff t).mpr hlt) (fun h => absurd ((inEmit_iff t).mp h) (by omega)) (iblk m c 0 t) (iblk m c 1 t) (iblk m c 2 t) (iblk m c 3 t) (iblk m c 4 t) (iblk m c 5 t) ((dats m 0 c).before 6 t d6) (proj m c) dh).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HH]; · iexact HH
      iintro ⟨H0, H1, H2, H3, H4, H5, H6, HP, HH⟩
      isplitl [HP HH Hg]
      · isplitl [HP HH]
        · isplitl [HP]
          · iexact HP
          iexists _; isplitr; swap
          · unfold owns; iexists _; isplitr; swap; · iexact HH
            ipureintro; rfl
          ipureintro
          refine agrees_step m c t dh _ hdh (fun y x hx0 hx1 => ?_) (fun y hy => ?_)
          · exact fill_read_mem c _ _ _ _ _ _ _ _ _ _ _ _ _ _ _ _ _ _ _ _ _ _ _ _ _ _ _ _ _ _ _ (fill_off t hlt) y x hx0 hx1
          · exact fill_read_not_mem c _ _ _ _ _ _ _ _ _ _ _ _ _ _ _ _ _ _ _ _ _ _ _ _ _ _ _ _ _ _ _ (fill_off t hlt) y hy
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- every row of H is stored: the result's block is computed from it
    have hz : t.val ≠ 0 := by omega
    rw [show (dats m 0 c).leavesExact 6 t = owns (c : Thread nD τ) (ms_6 t) fullShare ((dats m 0 c).after 6 t) from by
      unfold Dat.leavesExact; rw [idle_6 t, decide_eq_false hlt], after_6]
    rw [Phi_castSucc m c t, PhiS_pos m c _ _ hz]
    iintro ⟨⟨⟨HP, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : dh = hid m c := Cert.PrefixFill.eq_of_agreesBelow (hid m c) dh hdh (by omega)
    iapply ((runEmit c (grid0.coords t) _ _ _ _ _ _ _ _ _ _ _ _ _ _ _ _ _ _ (fun h => hz ((atFirst_iff t).mp h)) (fun h => hlt ((inFill_iff t).mp h)) ((inEmit_iff t).mpr (by omega)) (iblk m c 0 t) (iblk m c 1 t) (iblk m c 2 t) (iblk m c 3 t) (iblk m c 4 t) (iblk m c 5 t) ((dats m 0 c).before 6 t d6) (proj m c) (hid m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HP]; · iexact HP
    isplitl [HH]; · iexact HH
    iintro ⟨H0, H1, H2, H3, H4, H5, H6, HP, HH⟩
    isplitl [HP HH Hg]
    · isplitl [HP HH]
      · isplitl [HP]
        · iexact HP
        iexists _; isplitr; swap
        · iexact HH
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro
    exact emit_read c _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HP, ⟨%d, -, HH⟩⟩, Hg⟩
  isplitl [HP HH]
  · isplitl [HP]
    · iexists _; iexact HP
    iexists _; iexact HH
  iexact Hg

/-! ## The run and the frame -/

set_option backward.isDefEq.respectTransparency.types false in
/-- Every weakly fair execution of @main terminates, every array of the pipeline holding what the library computes
    from the proof data (an input its contents at the region's entry, the result those overwritten by the written-back
    blocks), every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealBody.Cases.lean ====
/-
  The three phases of the fused two-layer graph convolution, as conditions on the grid coordinate.

  The grid has 50 points. Point 0 computes the first projection s1 = x · W1 into the first scratch buffer;
  every point t < 25 computes rows [400 t, 400 t + 400) of H = max(adj · s1 + b1, 0) · W2 into the second
  scratch buffer; every point t ≥ 25 reads all of H and stores block t - 25 of log_softmax(adj · H + b2).
  This module decides the body's three branch conditions over the grid, names the staging memrefs the
  body is called with at a point, and spells the region's invariant over the two scratch buffers.
-/
import proofs.«118411_g40973988004062_cont_8to1_b_1328_5_alg».proof.Proof.Gen.KernelIdeal.Launch
import proofs.«118411_g40973988004062_cont_8to1_b_1328_5_alg».proof.Proof.Gen.KernelIdeal.Skeleton
import proofs.«118411_g40973988004062_cont_8to1_b_1328_5_alg».proof.Proof.Gen.KernelIdeal.Points
import proofs.«118411_g40973988004062_cont_8to1_b_1328_5_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grid -/

/-- The first branch (the projection s1 = x · W1 is computed and stored): taken when the coordinate is 0. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The second branch (a slice of 400 rows of H is computed and stored): taken at the coordinates below 25. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The third branch (a block of the result is computed from all of H and stored): taken from coordinate 25 on. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

/-- The rows the slice of point t starts at: 400 t, column 0. -/
theorem fill_off : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are live, and when the result's block is written back -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The result's window is idle exactly while H is being filled. -/
theorem idle_6 : ∀ t : Fin cfg0.N, cfg0.idle 6 (grid0.coords t) = decide (t.val < 25) :=
  (by decide +kernel : ∀ t : Fin grid0.N, cfg0.idle 6 (grid0.coords t) = decide (t.val < 25))
/-- The result's block is written back after every point from 25 on, and after no earlier one. -/
theorem flush_6 : ∀ t : Fin cfg0.N, (cfg0.win 6).flush t = decide (25 ≤ t.val) :=
  (by decide +kernel : ∀ t : Fin grid0.N, win0_6.flush t = decide (25 ≤ t.val))
/-- The block written back after point t ≥ 25 is block t - 25 of the result. -/
theorem index_6 : ∀ t : Fin cfg0.N, 25 ≤ t.val → (cfg0.win 6).index t = ![t.val - 25, 0] :=
  (by decide +kernel : ∀ t : Fin grid0.N, 25 ≤ t.val → win0_6.index t = ![t.val - 25, 0])
/-- The block of the adjacency matrix fetched at point t is block t mod 25. -/
theorem index_1 : ∀ t : Fin cfg0.N, (cfg0.win 1).index t = ![t.val % 25, 0] :=
  (by decide +kernel : ∀ t : Fin grid0.N, win0_1.index t = ![t.val % 25, 0])

/-! ## The memrefs the body is called with -/

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S64x16 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x16 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S400x16 .f32 := win0_6.stage (cfg0.slots t 6)
abbrev hs_6 (t : Fin cfg0.N) : (ms_6 t).IsWhole := hstage0_6 ((cfg0.slots t 6).cast nbuf0_6)
/-- The scratch buffer of the projection s1 (10000 × 64) and the scratch buffer of H (10000 × 16). -/
abbrev projM : Memref sig .tc .vmem S10000x64 .f32 := Memref.whole cc0_scratch0
abbrev hidM : Memref sig .tc .vmem S10000x16 .f32 := Memref.whole cc0_scratch1

/-- The region's invariant as the launch hands it over: both scratch buffers at some contents, the generator
    register at some state. -/
theorem PhiA_eq (c : Dev nD) :
    (Pipeline.ΦA spec0 c : sProp 𝕄)
      = iprop(iprop((∃ d, owns (c : Thread nD τ) projM fullShare d) ∗ (∃ d, owns (c : Thread nD τ) hidM fullShare d)) ∗ (∃ r, prngReg c r)) := by
  unfold Pipeline.ΦA; rw [scopedRest0_eq]; simp only [projM, hidM, owns_whole]; try rfl

end Cert.KernelIdeal.Body

end
-- ==== Proof.IdealBody.Data.lean ====
/-
  What the fused kernel computes, stated over the arrays as the region finds them, and the proof data of its
  pipeline.

  proj is the projection s1 = x · W1 (the first scratch buffer after point 0); hidSlice t is the 400 rows of
  H = max(adj · s1 + b1, 0) · W2 that point t < 25 computes from block t of the adjacency matrix; hid is all of H,
  row r taken from the slice of point r / 400; outBlk t is the block of log_softmax(adj · H + b2) that point
  t ≥ 25 computes from block t of the adjacency matrix and all of H.

  Between points the region's invariant holds the first scratch buffer at proj and the second at SOME contents
  that agree with hid on the rows stored so far (the buffer is never initialised, so what its other rows hold is
  not known, and not needed: the emitting phase starts when every row has been stored).
-/
import proofs.«118411_g40973988004062_cont_8to1_b_1328_5_alg».proof.Proof.IdealBody.Cases
import Idealize.ShloMosaic.Lib.ValueIdx
import proofs.«118411_g40973988004062_cont_8to1_b_1328_5_alg».proof.Proof.LibPrefixFill

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def t0 : Fin cfg0.N := ⟨0, lt_of_lt_of_eq (by omega : 0 < 50) N_0.symm⟩

/-- s1 = x · W1, from the blocks of x and W1 (the whole arrays) at the first point. -/
def proj (c : Dev nD) : Vec F S10000x64 .f32 := k0_pay1 (iblk m c 0 t0) (iblk m c 2 t0)

/-- The 400 rows of H that point t computes: max(adj_t · s1 + b1, 0) · W2. -/
def hidSlice (c : Dev nD) (t : Fin cfg0.N) : Vec F S400x16 .f32 :=
  k0_pay2 (iblk m c 1 t) (proj m c) (iblk m c 3 t) (iblk m c 4 t)

/-- The point whose slice holds row y 0 of H: y 0 / 400. -/
def ptOf (y : S10000x16.Idx) : Fin cfg0.N :=
  ⟨(y 0).val / 400, lt_of_lt_of_eq (by have := idx2_lt0 y; omega : (y 0).val / 400 < 50) N_0.symm⟩
/-- and the place of (y 0, y 1) inside that slice: row y 0 mod 400. -/
def rowIn (y : S10000x16.Idx) : S400x16.Idx :=
  ix2 (⟨(y 0).val % 400, Nat.mod_lt _ (by omega)⟩ : Fin 400) (⟨(y 1).val, idx2_lt1 y⟩ : Fin 16)

/-- All of H, row by row from the slices. -/
def hid (c : Dev nD) : Vec F S10000x16 .f32 := fun y => hidSlice m c (ptOf y) (rowIn y)

/-- The block of the result that point t computes: the row-wise log-softmax of adj_t · H + b2. -/
def outBlk (c : Dev nD) (t : Fin cfg0.N) : Vec F S400x16 .f32 :=
  k0_pay3 (iblk m c 1 t) (hid m c) (iblk m c 5 t)

/-- Contents d of the second scratch buffer agree with H on the rows below 400 n. -/
def AgreesBelow (c : Dev nD) (n : ℕ) (d : Vec F S10000x16 .f32) : Prop :=
  Cert.PrefixFill.AgreesBelow (hid m c) d (400 * n)

/-- The region's invariant before position n: at the start the launch's (both scratch buffers at anything);
    afterwards the first scratch buffer at s1 and the second agreeing with H on the rows stored so far. -/
def PhiS (c : Dev nD) : (n : ℕ) → n ≤ cfg0.N → sProp 𝕄
  | 0, _ => Pipeline.ΦA spec0 c
  | n + 1, _ => iprop(iprop(owns (c : Thread nD τ) projM fullShare (proj m c) ∗ (∃ d, ⌜AgreesBelow m c (n + 1) d⌝ ∗ owns (c : Thread nD τ) hidM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) projM fullShare (proj m c) ∗ (∃ d, ⌜AgreesBelow m c (n + 1) d⌝ ∗ owns (c : Thread nD τ) hidM fullShare d)) ∗ (∃ r, prngReg c r)) := rfl

theorem PhiS_pos (c : Dev nD) (n : ℕ) (h : n ≤ cfg0.N) (hz : n ≠ 0) :
    PhiS m c n h = iprop(iprop(owns (c : Thread nD τ) projM fullShare (proj m c) ∗ (∃ d, ⌜AgreesBelow m c n d⌝ ∗ owns (c : Thread nD τ) hidM fullShare d)) ∗ (∃ r, prngReg c r)) := by
  cases n with
  | zero => exact absurd rfl hz
  | succ n => rfl

/-- The proof data of the pipeline on core c: the arrays as the region finds them; every input's buffer left at its
    block, the result's buffer at the block the point computes (consulted only from point 25 on: before that the
    window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Body

end
-- ==== Proof.IdealBody.RunFirst.lean ====
/-
  The body at point 0: the projection s1 = x · W1 is computed and stored over the whole first scratch buffer,
  then read back; the first block of 400 rows of the adjacency matrix is multiplied with it, the bias row added,
  the rectifier applied, the result multiplied with W2, and the 400 × 16 product stored over rows [0, 400) of the
  second scratch buffer. The pieces both scratch buffers end with are found by running the body.
-/
import proofs.«118411_g40973988004062_cont_8to1_b_1328_5_alg».proof.Proof.IdealBody.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at the first point: every buffer handed over at named contents, the inputs and the
    result's buffer handed back untouched, the two scratch buffers with the found pieces written over what
    they held. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    Σ' (LP : List (View.Piece (Elt F) S10000x64 .f32)), { LH : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread xp) LP) ∗ (arg9.view.loc (c : Thread nD τ) ↦[arg9.view.set]{fullShare} arg9.view.writes (Elt F) (harg9.unread xh) LH)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HP]
    · iexact HP
    iexact HH

end Cert.KernelIdeal.Body

end
-- ==== Proof.IdealBody.RunFill.lean ====
/-
  The body at a point 0 < t < 25: the block of 400 rows of the adjacency matrix is multiplied with the
  projection s1 held in the first scratch buffer, the bias row added, the rectifier applied, the result
  multiplied with W2, and the 400 × 16 product stored over rows [400 t, 400 t + 400) of the second scratch
  buffer; nothing else is written. The list of pieces the second scratch buffer ends with is found by running
  the body.
-/
import proofs.«118411_g40973988004062_cont_8to1_b_1328_5_alg».proof.Proof.IdealBody.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in the filling phase after the first point: every buffer handed over at named contents,
    the inputs, the result's buffer and the projection handed back untouched, the buffer of H with the found
    pieces written over what it held. -/
noncomputable def runFill (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    { LH : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ (arg9.view.loc (c : Thread nD τ) ↦[arg9.view.set]{fullShare} arg9.view.writes (Elt F) (harg9.unread xh) LH)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HP]
    · iexists _; isplitr; · ipureintro; exact harg8.read_unread _
      iexact HP
    iexact HH

end Cert.KernelIdeal.Body

end
-- ==== Proof.IdealBody.RunEmit.lean ====
/-
  The body at a point t ≥ 25: the block of 400 rows of the adjacency matrix is multiplied with all of H, read
  from the second scratch buffer, the bias row added, and each row's log-softmax (the row less its maximum, less
  the logarithm of the sum of the exponentials of that) stored over the whole of the result's staging buffer; the
  scratch buffers are only read. The pieces the result's buffer ends with are found by running the body.
-/
import proofs.«118411_g40973988004062_cont_8to1_b_1328_5_alg».proof.Proof.IdealBody.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in the emitting phase: every buffer handed over at named contents, the inputs and both
    scratch buffers handed back untouched, the result's buffer with the found pieces written over what it held. -/
noncomputable def runEmit (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : ¬inFill i) (hc2 : inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    { LO : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xp ∗ owns (c : Thread nD τ) arg9 fullShare xh
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread x6) LO) ∗ owns (c : Thread nD τ) arg8 fullShare xp ∗ owns (c : Thread nD τ) arg9 fullShare xh) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fh, %hfh, HH⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfp; obtain rfl := harg9.eq_unread hfh
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexact H6
    isplitl [HP]
    · iexists _; isplitr; · ipureintro; exact harg8.read_unread _
      iexact HP
    iexists _; isplitr; · ipureintro; exact harg9.read_unread _
    iexact HH

end Cert.KernelIdeal.Body

end
-- ==== Proof.IdealBody.Pieces.lean ====
/-
  What the three phases leave in the buffers they store into, read back.

  A load through the whole-shape rectangle of a whole buffer reads the buffer's contents, so each found piece's
  payload is the phase's arithmetic applied to the contents the buffers were handed over at. The filling phases
  store ONE piece, 400 whole rows starting at the row the grid coordinate chooses: inside those rows the second
  scratch buffer reads the new slice, outside them what it held. The first phase's piece in the first scratch
  buffer and the emitting phase's piece in the result's buffer cover their buffers.
-/
import proofs.«118411_g40973988004062_cont_8to1_b_1328_5_alg».proof.Proof.IdealBody.RunFirst
import proofs.«118411_g40973988004062_cont_8to1_b_1328_5_alg».proof.Proof.IdealBody.RunFill
import proofs.«118411_g40973988004062_cont_8to1_b_1328_5_alg».proof.Proof.IdealBody.RunEmit
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-! ## The filling phase after the first point -/

/-- Inside the 400 rows the point stores, the second scratch buffer reads the new slice. -/
theorem fill_read_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx) (x : S400x16.Idx)
    (hx0 : (y 0).val = o + (x 0).val) (hx1 : (y 1).val = (x 1).val) :
    arg9.view.read (Elt F) (arg9.view.writes (Elt F) (harg9.unread xh) (runFill c i arg1 harg1 arg2 harg2 arg3 harg3 arg4 harg4 arg5 harg5 arg6 harg6 arg7 harg7 arg8 harg8 arg9 harg9 hc0 hc1 hc2 x0 x1 x2 x3 x4 x5 x6 xp xh).1) y
      = k0_pay2 x1 xp x3 x4 x := by
  unfold runFill
  dsimp only
  refine (View.read_writes_cons_rows_of_mem arg9.view _ _ _ [] y x ho hx0 hx1).trans ?_
  simp only [View.readAt_eq_ld, harg2.read_unread, harg8.read_unread, harg4.read_unread, harg5.read_unread,
    View.ld_unit_zero (S := S400x10000) zeros2, View.ld_unit_zero (S := S10000x64) zeros2,
    View.ld_unit_zero (S := S1x64) zeros2, View.ld_unit_zero (S := S64x16) zeros2]

/-- Outside them it reads what it held. -/
theorem fill_read_not_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx)
    (h : (y 0).val < o ∨ o + 400 ≤ (y 0).val) :
    arg9.view.read (Elt F) (arg9.view.writes (Elt F) (harg9.unread xh) (runFill c i arg1 harg1 arg2 harg2 arg3 harg3 arg4 harg4 arg5 harg5 arg6 harg6 arg7 harg7 arg8 harg8 arg9 harg9 hc0 hc1 hc2 x0 x1 x2 x3 x4 x5 x6 xp xh).1) y = xh y := by
  unfold runFill
  dsimp only
  refine (View.read_writes_cons_rows_of_not_mem arg9.view _ _ _ [] y ho rfl h).trans ?_
  rw [View.writes_nil, harg9.read_unread]

/-! ## The first point -/

/-- The first scratch buffer after the first point reads s1 = x · W1, whatever it held. -/
theorem first_read_proj (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    arg8.view.read (Elt F) (arg8.view.writes (Elt F) (harg8.unread xp) (runFirst c i arg1 harg1 arg2 harg2 arg3 harg3 arg4 harg4 arg5 harg5 arg6 harg6 arg7 harg7 arg8 harg8 arg9 harg9 hc0 hc1 hc2 x0 x1 x2 x3 x4 x5 x6 xp xh).1) = k0_pay1 x0 x2 := by
  unfold runFirst
  dsimp only
  sl_unfold_run_names
  funext y
  refine (View.read_writes_cons_rows_of_mem arg8.view _ _ _ [] y y rfl (Nat.zero_add _).symm rfl).trans ?_
  simp only [View.readAt_eq_ld, harg1.read_unread, harg3.read_unread,
    View.ld_unit_zero (S := S10000x128) zeros2, View.ld_unit_zero (S := S128x64) zeros2]

/-- Inside rows [o, o + 400) the second scratch buffer reads the first slice, computed from the s1 just stored. -/
theorem first_read_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx) (x : S400x16.Idx)
    (hx0 : (y 0).val = o + (x 0).val) (hx1 : (y 1).val = (x 1).val) :
    arg9.view.read (Elt F) (arg9.view.writes (Elt F) (harg9.unread xh) (runFirst c i arg1 harg1 arg2 harg2 arg3 harg3 arg4 harg4 arg5 harg5 arg6 harg6 arg7 harg7 arg8 harg8 arg9 harg9 hc0 hc1 hc2 x0 x1 x2 x3 x4 x5 x6 xp xh).2.1) y
      = k0_pay2 x1 (k0_pay1 x0 x2) x3 x4 x := by
  unfold runFirst
  dsimp only
  sl_unfold_run_names
  refine (View.read_writes_cons_rows_of_mem arg9.view _ _ _ [] y x ho hx0 hx1).trans ?_
  rw [View.readCov_unit_zero (S := S10000x64) _ zeros2]
  simp only [View.readAt_eq_ld, harg1.read_unread, harg2.read_unread, harg3.read_unread, harg4.read_unread, harg5.read_unread,
    View.ld_unit_zero (S := S400x10000) zeros2, View.ld_unit_zero (S := S10000x128) zeros2, View.ld_unit_zero (S := S128x64) zeros2,
    View.ld_unit_zero (S := S1x64) zeros2, View.ld_unit_zero (S := S64x16) zeros2]

/-- Outside them it reads what it held. -/
theorem first_read_not_mem (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : atFirst i) (hc1 : inFill i) (hc2 : ¬inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) {o : ℕ} (ho : k0_off1 i = ![o, 0]) (y : S10000x16.Idx)
    (h : (y 0).val < o ∨ o + 400 ≤ (y 0).val) :
    arg9.view.read (Elt F) (arg9.view.writes (Elt F) (harg9.unread xh) (runFirst c i arg1 harg1 arg2 harg2 arg3 harg3 arg4 harg4 arg5 harg5 arg6 harg6 arg7 harg7 arg8 harg8 arg9 harg9 hc0 hc1 hc2 x0 x1 x2 x3 x4 x5 x6 xp xh).2.1) y = xh y := by
  unfold runFirst
  dsimp only
  sl_unfold_run_names
  refine (View.read_writes_cons_rows_of_not_mem arg9.view _ _ _ [] y ho rfl h).trans ?_
  rw [View.writes_nil, harg9.read_unread]

/-! ## The emitting phase -/

/-- The result's buffer after an emitting point reads the block computed from the adjacency block, the contents of
    the second scratch buffer and the bias row, whatever it held. -/
theorem emit_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S1x16 .f32) (harg6 : arg6.IsWhole) (arg7 : Memref sig .tc .vmem S400x16 .f32) (harg7 : arg7.IsWhole) (arg8 : Memref sig .tc .vmem S10000x64 .f32) (harg8 : arg8.IsWhole) (arg9 : Memref sig .tc .vmem S10000x16 .f32) (harg9 : arg9.IsWhole) (hc0 : ¬atFirst i) (hc1 : ¬inFill i) (hc2 : inEmit i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xp : Vec F S10000x64 .f32) (xh : Vec F S10000x16 .f32) :
    arg7.view.read (Elt F) (arg7.view.writes (Elt F) (harg7.unread x6) (runEmit c i arg1 harg1 arg2 harg2 arg3 harg3 arg4 harg4 arg5 harg5 arg6 harg6 arg7 harg7 arg8 harg8 arg9 harg9 hc0 hc1 hc2 x0 x1 x2 x3 x4 x5 x6 xp xh).1) = k0_pay3 x1 xh x5 := by
  unfold runEmit
  dsimp only
  funext y
  refine (View.read_writes_cons_rows_of_mem arg7.view _ _ _ [] y y rfl (Nat.zero_add _).symm rfl).trans ?_
  simp only [View.readAt_eq_ld, harg2.read_unread, harg9.read_unread, harg6.read_unread,
    View.ld_unit_zero (S := S400x10000) zeros2, View.ld_unit_zero (S := S10000x16) zeros2, View.ld_unit_zero (S := S1x16) zeros2]

end Cert.KernelIdeal.Body

end
-- ==== Proof.IdealBody.Sound.lean ====
/-
  The body obligation of the fused kernel's pipeline, the run of @main, and the frame.

  At every point the body is handed the invariant, the inputs' buffers at their blocks and the result's buffer,
  and runs in the phase the point is in. At point 0 it turns the launch's invariant (both scratch buffers at
  anything) into: s1 in the first, rows [0, 400) of H in the second. At a point 0 < t < 25 it adds rows
  [400 t, 400 t + 400) of H. At a point t ≥ 25 every row of H has been stored, so the second scratch buffer
  holds exactly H and the result's buffer is left at the block computed from it. While H is being filled the
  result's window is idle: its buffer is handed back as it was found.
-/
import proofs.«118411_g40973988004062_cont_8to1_b_1328_5_alg».proof.Proof.IdealBody.Data
import proofs.«118411_g40973988004062_cont_8to1_b_1328_5_alg».proof.Proof.IdealBody.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows of H stored so far -/

/-- Storing the slice of point t over contents that agree with H below row 400 t gives contents that agree with
    H below row 400 (t + 1). -/
theorem agrees_step (c : Dev nD) (t : Fin cfg0.N) (dOld dNew : Vec F S10000x16 .f32)
    (hold : AgreesBelow m c t.val dOld)
    (hmem : ∀ (y : S10000x16.Idx) (x : S400x16.Idx), (y 0).val = 400 * t.val + (x 0).val → (y 1).val = (x 1).val →
      dNew y = hidSlice m c t x)
    (hnot : ∀ y : S10000x16.Idx, ((y 0).val < 400 * t.val ∨ 400 * t.val + 400 ≤ (y 0).val) → dNew y = dOld y) :
    AgreesBelow m c (t.val + 1) dNew :=
  Cert.PrefixFill.agreesBelow_step (R := 400) (hid m c) dOld dNew t.val hold
    (fun y h1 h2 => by
      have hp : ptOf y = t := Fin.ext (by show (y 0).val / 400 = t.val; omega)
      rw [hmem y (rowIn y) (by show (y 0).val = 400 * t.val + (y 0).val % 400; omega) rfl]
      show hidSlice m c t (rowIn y) = hidSlice m c (ptOf y) (rowIn y)
      rw [hp])
    hnot

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  have hN : t.val < 50 := lt_of_lt_of_eq t.isLt N_0
  by_cases hlt : t.val < 25
  · -- H is being filled: the result's window is idle and is not written back
    rw [(dats m 0 c).leavesExact_idle 6 t (by rw [idle_6 t]; exact decide_eq_true hlt)
      (by rw [flush_6 t]; exact decide_eq_false (by omega))]
    by_cases hz : t.val = 0
    · -- the first point
      rw [Phi_castSucc m c t, PhiS_zero m c _ _ hz, PhiA_eq]
      iintro ⟨⟨⟨⟨%dp, HP⟩, ⟨%dh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ ((atFirst_iff t).mpr hz) ((inFill_iff t).mpr hlt) (fun h => absurd ((inEmit_iff t).mp h) (by omega)) (iblk m c 0 t) (iblk m c 1 t) (iblk m c 2 t) (iblk m c 3 t) (iblk m c 4 t) (iblk m c 5 t) ((dats m 0 c).before 6 t d6) dp dh).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HH]; · iexact HH
      iintro ⟨H0, H1, H2, H3, H4, H5, H6, HP, HH⟩
      isplitl [HP HH Hg]
      · isplitl [HP HH]
        · isplitl [HP]
          · unfold owns; iexists _; isplitr; swap; · iexact HP
            ipureintro
            obtain rfl : t = t0 := Fin.ext hz
            exact first_read_proj c _ _ _ _ _ _ _ _ _ _ _ _ _ _ _ _ _ _ _ _ _ _ _ _ _ _ _ _ _ _ _
          iexists _; isplitr; swap
          · unfold owns; iexists _; isplitr; swap; · iexact HH
            ipureintro; rfl
          ipureintro
          obtain rfl : t = t0 := Fin.ext hz
          refine agrees_step m c t0 dh _ (fun y hy => absurd hy (by show ¬ (y 0).val < 400 * 0; omega)) (fun y x hx0 hx1 => ?_) (fun y hy => ?_)
          · exact first_read_mem c _ _ _ _ _ _ _ _ _ _ _ _ _ _ _ _ _ _ _ _ _ _ _ _ _ _ _ _ _ _ _ (fill_off t0 hlt) y x hx0 hx1
          · exact first_read_not_mem c _ _ _ _ _ _ _ _ _ _ _ _ _ _ _ _ _ _ _ _ _ _ _ _ _ _ _ _ _ _ _ (fill_off t0 hlt) y hy
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later filling point
      rw [Phi_castSucc m c t, PhiS_pos m c _ _ hz]
      iintro ⟨⟨⟨HP, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runFill c (grid0.coords t) _ _ _ _ _ _ _ _ _ _ _ _ _ _ _ _ _ _ (fun h => hz ((atFirst_iff t).mp h)) ((inFill_iff t).mpr hlt) (fun h => absurd ((inEmit_iff t).mp h) (by omega)) (iblk m c 0 t) (iblk m c 1 t) (iblk m c 2 t) (iblk m c 3 t) (iblk m c 4 t) (iblk m c 5 t) ((dats m 0 c).before 6 t d6) (proj m c) dh).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HH]; · iexact HH
      iintro ⟨H0, H1, H2, H3, H4, H5, H6, HP, HH⟩
      isplitl [HP HH Hg]
      · isplitl [HP HH]
        · isplitl [HP]
          · iexact HP
          iexists _; isplitr; swap
          · unfold owns; iexists _; isplitr; swap; · iexact HH
            ipureintro; rfl
          ipureintro
          refine agrees_step m c t dh _ hdh (fun y x hx0 hx1 => ?_) (fun y hy => ?_)
          · exact fill_read_mem c _ _ _ _ _ _ _ _ _ _ _ _ _ _ _ _ _ _ _ _ _ _ _ _ _ _ _ _ _ _ _ (fill_off t hlt) y x hx0 hx1
          · exact fill_read_not_mem c _ _ _ _ _ _ _ _ _ _ _ _ _ _ _ _ _ _ _ _ _ _ _ _ _ _ _ _ _ _ _ (fill_off t hlt) y hy
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- every row of H is stored: the result's block is computed from it
    have hz : t.val ≠ 0 := by omega
    rw [show (dats m 0 c).leavesExact 6 t = owns (c : Thread nD τ) (ms_6 t) fullShare ((dats m 0 c).after 6 t) from by
      unfold Dat.leavesExact; rw [idle_6 t, decide_eq_false hlt], after_6]
    rw [Phi_castSucc m c t, PhiS_pos m c _ _ hz]
    iintro ⟨⟨⟨HP, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : dh = hid m c := Cert.PrefixFill.eq_of_agreesBelow (hid m c) dh hdh (by omega)
    iapply ((runEmit c (grid0.coords t) _ _ _ _ _ _ _ _ _ _ _ _ _ _ _ _ _ _ (fun h => hz ((atFirst_iff t).mp h)) (fun h => hlt ((inFill_iff t).mp h)) ((inEmit_iff t).mpr (by omega)) (iblk m c 0 t) (iblk m c 1 t) (iblk m c 2 t) (iblk m c 3 t) (iblk m c 4 t) (iblk m c 5 t) ((dats m 0 c).before 6 t d6) (proj m c) (hid m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HP]; · iexact HP
    isplitl [HH]; · iexact HH
    iintro ⟨H0, H1, H2, H3, H4, H5, H6, HP, HH⟩
    isplitl [HP HH Hg]
    · isplitl [HP HH]
      · isplitl [HP]
        · iexact HP
        iexists _; isplitr; swap
        · iexact HH
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro
    exact emit_read c _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HP, ⟨%d, -, HH⟩⟩, Hg⟩
  isplitl [HP HH]
  · isplitl [HP]
    · iexists _; iexact HP
    iexists _; iexact HH
  iexact Hg

/-! ## The run and the frame -/

set_option backward.isDefEq.respectTransparency.types false in
/-- Every weakly fair execution of @main terminates, every array of the pipeline holding what the library computes
    from the proof data (an input its contents at the region's entry, the result those overwritten by the written-back
    blocks), every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«118411_g40973988004062_cont_8to1_b_1328_5_alg».proof.Proof.LibRowLayers
import proofs.«118411_g40973988004062_cont_8to1_b_1328_5_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«118411_g40973988004062_cont_8to1_b_1328_5_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«118411_g40973988004062_cont_8to1_b_1328_5_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.Bridge.KernelPayloads.lean ====
/-
  The three payloads of the fused kernel at the extended reals, read at an entry.

  The first is the projection: entry (a, e) of x · W1 is ∑ g, x[a, g] · W1[g, e]. The second is 400 rows of the
  hidden layer after its second projection: entry (r, q) is ∑ e, max(dense row, 0)[e] · W2[e, q], where the dense
  row is the row of the adjacency block times the projection plus the bias row. The third is 400 rows of the
  result: entry (r, j) is the log-softmax, at j, of the dense row built from the adjacency row, all of H and the
  second bias row.
-/
import proofs.«118411_g40973988004062_cont_8to1_b_1328_5_alg».proof.Proof.Gen.KernelIdeal.Skeleton
import proofs.«118411_g40973988004062_cont_8to1_b_1328_5_alg».proof.Proof.LibLogSoftmaxRows
import proofs.«118411_g40973988004062_cont_8to1_b_1328_5_alg».proof.Proof.LibRowExtras

noncomputable section

namespace Cert.KernelIdeal.Val

open Idealize.ShloMosaic Idealize.ShloMosaic.TcCoe Idealize.ShloMosaic.ValueIdx
open Cert.KernelIdeal Cert.KernelIdeal.Gen Cert.RowLayers Cert.ChebRows

/-! ## The four products are rows times columns -/

theorem rtc_proj : RowsTimesCols dot_S10000x128_S128x64_S10000x64_1_0_0_1_n_n :=
  ⟨rfl, rfl,
    fun j q => by
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl,
    fun j q => dot_S10000x128_S128x64_S10000x64_1_0_0_1_n_n.lhsIdx_val_of_single rfl j q,
    fun j q => dot_S10000x128_S128x64_S10000x64_1_0_0_1_n_n.rhsIdx_val_of_single rfl j q,
    fun j q => by
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl⟩
theorem rtc_agg1 : RowsTimesCols dot_S400x10000_S10000x64_S400x64_1_0_0_1_n_n :=
  ⟨rfl, rfl,
    fun j q => by
      unfold DotDims.lhsIdx
      rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
      rfl,
    fun j q => dot_S400x10000_S10000x64_S400x64_1_0_0_1_n_n.lhsIdx_val_of_single rfl j q,
    fun j q => dot_S400x10000_S10000x64_S400x64_1_0_0_1_n_n.rhsIdx_val_of_single rfl j q,
    fun j q => by
      unfold DotDims.rhsIdx
      rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
      rfl⟩
theorem rtc_out2 : RowsTimesCols dot_S400x64_S64x16_S400x16_1_0_0_1_n_n :=
  ⟨rfl, rfl,
    fun j q => by
      unfold DotDims.lhsIdx
      rw [dif_neg (show ¬(0 : Fin S400x64.rank) ∈ dot_S400x64_S64x16_S400x16_1_0_0_1_n_n.lhsBatch by decide), dif_pos (show (0 : Fin S400x64.rank) ∈ dot_S400x64_S64x16_S400x16_1_0_0_1_n_n.lhsNonContracting by decide)]
      rfl,
    fun j q => dot_S400x64_S64x16_S400x16_1_0_0_1_n_n.lhsIdx_val_of_single rfl j q,
    fun j q => dot_S400x64_S64x16_S400x16_1_0_0_1_n_n.rhsIdx_val_of_single rfl j q,
    fun j q => by
      unfold DotDims.rhsIdx
      rw [dif_neg (show ¬(1 : Fin S64x16.rank) ∈ dot_S400x64_S64x16_S400x16_1_0_0_1_n_n.rhsBatch by decide), dif_pos (show (1 : Fin S64x16.rank) ∈ dot_S400x64_S64x16_S400x16_1_0_0_1_n_n.rhsNonContracting by decide)]
      rfl⟩
theorem rtc_agg2 : RowsTimesCols dot_S400x10000_S10000x16_S400x16_1_0_0_1_n_n :=
  ⟨rfl, rfl,
    fun j q => by
      unfold DotDims.lhsIdx
      rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
      rfl,
    fun j q => dot_S400x10000_S10000x16_S400x16_1_0_0_1_n_n.lhsIdx_val_of_single rfl j q,
    fun j q => dot_S400x10000_S10000x16_S400x16_1_0_0_1_n_n.rhsIdx_val_of_single rfl j q,
    fun j q => by
      unfold DotDims.rhsIdx
      rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
      rfl⟩

/-! ## The payloads at an entry -/

/-- The zero the rectifier compares with, and the start value of the row maximum (minus infinity's pattern). -/
abbrev zeroE : EReal := Ideal.ofBits .f32 0x00000000#32
abbrev negInfE : EReal := Ideal.ofBits .f32 0xFF800000#32

theorem pay1_apply (x : Vec Ideal S10000x128 .f32) (w1 : Vec Ideal S128x64 .f32) (a : Fin 10000) (e : Fin 64) :
    k0_pay1 (F := Ideal) x w1 (ix2 a e) = ∑ g : Fin 128, x (ix2 a g) * w1 (ix2 g e) := by
  unfold k0_pay1
  rw [shapeCast_self]
  exact congrFun (rowOf_matmul_zero rtc_proj none x w1 a) e

theorem pay2_apply (adjb : Vec Ideal S400x10000 .f32) (s1 : Vec Ideal S10000x64 .f32) (b1 : Vec Ideal S1x64 .f32)
    (w2 : Vec Ideal S64x16 .f32) (r : Fin 400) (q : Fin 16) :
    k0_pay2 (F := Ideal) adjb s1 b1 w2 (ix2 r q)
      = ∑ e : Fin 64, relu zeroE (dense (rowOf adjb r) s1 (rowOf b1 0)) e * w2 (ix2 e q) := by
  unfold k0_pay2
  rw [shapeCast_self, shapeCast_self]
  refine (congrFun (rowOf_matmul_zero rtc_out2 none _ w2 r) q).trans ?_
  rw [rowOf_maximumf_splat, rowOf_dense_device rtc_agg1]
  rfl

theorem pay3_apply (adjb : Vec Ideal S400x10000 .f32) (H : Vec Ideal S10000x16 .f32) (b2 : Vec Ideal S1x16 .f32)
    (r : Fin 400) (j : Fin 16) :
    k0_pay3 (F := Ideal) adjb H b2 (ix2 r j) = logSoftmax negInfE (dense (rowOf adjb r) H (rowOf b2 0)) j := by
  unfold k0_pay3
  rw [shapeCast_self]
  refine (logSoftmax_device_apply _ _ _ _ _ _ _ _ _ r j).trans ?_
  rw [rowOf_dense_device rtc_agg2]

end Cert.KernelIdeal.Val

end
-- ==== Proof.Bridge.KernelBlocks.lean ====
/-
  The blocks the body is handed, read off the arrays the region finds.

  Five of the six inputs are staged whole: their block at every point is the array itself (x, W1, W2 as launched;
  the two bias vectors as the host re-laid them, [64] viewed as [1, 64] and [16] viewed as [1, 16]). The block of
  the adjacency matrix at point t is its rows [400 (t mod 25), 400 (t mod 25) + 400).
-/
import proofs.«118411_g40973988004062_cont_8to1_b_1328_5_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Idealize.ShloMosaic.StableHlo

variable {F : FTy → Type} [FloatOps F]

local notation "𝕄" => MT nD τ sig Unit (Elt F) ℕ (UR sig nD τ) ℕ

variable (m : (ℓ : Loc nD τ sig) → Buf (Elt F) ℓ)

theorem index_0c : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index_2c : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3c : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_4c : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5c : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_1r : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-- Window 0's block at any point is the whole array. -/
theorem iblk_x (c : Dev nD) (t : Fin cfg0.N) :
    (iblk m c 0 t : S10000x128.Idx → Elt F .f32) = V m c main_arg0 := by
  funext j
  obtain ⟨e0, e1⟩ := index_0c t
  show V m c main_arg0 (((cfg0.win 0).blk t).view.emb j) = V m c main_arg0 j
  refine congrArg _ (funext fun a => Fin.ext ?_)
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- Window 2's block at any point is the whole array. -/
theorem iblk_w1 (c : Dev nD) (t : Fin cfg0.N) :
    (iblk m c 2 t : S128x64.Idx → Elt F .f32) = V m c main_arg2 := by
  funext j
  obtain ⟨e0, e1⟩ := index_2c t
  show V m c main_arg2 (((cfg0.win 2).blk t).view.emb j) = V m c main_arg2 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 64 + 1 * (j 1).val = (j 1).val; rw [e1]; omega

/-- Window 3's block at any point is the whole array. -/
theorem iblk_b1 (c : Dev nD) (t : Fin cfg0.N) :
    (iblk m c 3 t : S1x64.Idx → Elt F .f32) = V m c main_v0 := by
  funext j
  obtain ⟨e0, e1⟩ := index_3c t
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 64 + 1 * (j 1).val = (j 1).val; rw [e1]; omega

/-- Window 4's block at any point is the whole array. -/
theorem iblk_w2 (c : Dev nD) (t : Fin cfg0.N) :
    (iblk m c 4 t : S64x16.Idx → Elt F .f32) = V m c main_arg4 := by
  funext j
  obtain ⟨e0, e1⟩ := index_4c t
  show V m c main_arg4 (((cfg0.win 4).blk t).view.emb j) = V m c main_arg4 j
  refine congrArg _ (funext fun a => Fin.ext ?_)
  match a with
  | ⟨0, _⟩ => show win0_4.index t (0 : Fin 2) * 64 + 1 * (j 0).val = (j 0).val; rw [e0]; omega
  | ⟨1, _⟩ => show win0_4.index t (1 : Fin 2) * 16 + 1 * (j 1).val = (j 1).val; rw [e1]; omega

/-- Window 5's block at any point is the whole array. -/
theorem iblk_b2 (c : Dev nD) (t : Fin cfg0.N) :
    (iblk m c 5 t : S1x16.Idx → Elt F .f32) = V m c main_v1 := by
  funext j
  obtain ⟨e0, e1⟩ := index_5c t
  show V m c main_v1 (((cfg0.win 5).blk t).view.emb j) = V m c main_v1 j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 16 + 1 * (j 1).val = (j 1).val; rw [e1]; omega

/-- Row r of the adjacency block at point t is row 400 (t mod 25) + r of the adjacency matrix. -/
theorem iblk_adj_apply (c : Dev nD) (t : Fin cfg0.N) (r : Fin 400) (k : Fin 10000) (R : Fin 10000)
    (hR : R.val = (t.val % 25) * 400 + r.val) :
    (iblk m c 1 t : S400x10000.Idx → Elt F .f32) (ix2 r k) = V m c main_arg1 (ix2 R k) := by
  obtain ⟨e0, e1⟩ := index_1r t
  show V m c main_arg1 (((cfg0.win 1).blk t).view.emb (ix2 r k)) = V m c main_arg1 (ix2 R k)
  refine congrArg _ (funext fun a => Fin.ext ?_)
  match a with
  | ⟨0, _⟩ => show win0_1.index t (0 : Fin 2) * 400 + 1 * r.val = R.val; rw [e0, hR]; omega
  | ⟨1, _⟩ => show win0_1.index t (1 : Fin 2) * 10000 + 1 * k.val = k.val; rw [e1]; omega

/-- The first bias vector as the region finds it: the argument viewed as one row. -/
theorem V_b1 (c : Dev nD) :
    (V m c main_v0 : S1x64.Idx → Elt F .f32) = shapeCast S1x64 (m ((c : Thread nD τ).loc main_arg3)) shapeCasts_S64_S1x64 := by
  dsimp only [Gen.V, Gen.hostOps0]; after_results; rfl

/-- The second bias vector as the region finds it: the argument viewed as one row. -/
theorem V_b2 (c : Dev nD) :
    (V m c main_v1 : S1x16.Idx → Elt F .f32) = shapeCast S1x16 (m ((c : Thread nD τ).loc main_arg5)) shapeCasts_S16_S1x16 := by
  dsimp only [Gen.V, Gen.hostOps0]; after_results; rfl

end Cert.KernelIdeal.Val

end
-- ==== Proof.Bridge.KernelArray.lean ====
/-
  The result array after the run of the fused kernel, as one function of the arrays the region finds.

  Every emitting point t ≥ 25 writes its block back as rows [400 (t - 25), 400 (t - 25) + 400) of the result, and
  these 25 blocks tile the 10000 rows. So entry (r, j) of the result is entry (r mod 400, j) of the block computed
  at point 25 + r / 400.
-/
import proofs.«118411_g40973988004062_cont_8to1_b_1328_5_alg».proof.Proof.IdealBody.Sound
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The emitting point that computes row i 0 of the result. -/
def emitPt (i : S10000x16.Idx) : Fin cfg0.N :=
  ⟨25 + (i 0).val / 400, lt_of_lt_of_eq (by have := idx2_lt0 i; omega : 25 + (i 0).val / 400 < 50) N_0.symm⟩

/-- The result: row by row from the blocks the emitting points compute. -/
def result (c : Dev nD) : S10000x16.Idx → Elt F .f32 := fun i => outBlk m c (emitPt i) (rowIn i)

/-- What an emitting point writes back is its block of the result. -/
theorem flushed_eq (c : Dev nD) (t : Fin cfg0.N) (ht : 25 ≤ t.val) :
    (dats m 0 c).flushed 6 t = ((cfg0.win 6).blk t).view.read (Elt F) (result m c) := by
  show (cfg0.win 6).cut (grid0.coords t) ((dats m 0 c).after 6 t) = _
  rw [after_6]
  funext j
  have hi := index_6 t ht
  have i0 : win0_6.index t (0 : Fin 2) = t.val - 25 := congrFun hi 0
  have i1 : win0_6.index t (1 : Fin 2) = 0 := congrFun hi 1
  have e0 : ((((cfg0.win 6).blk t).view.emb j) 0).val = win0_6.index t (0 : Fin 2) * 400 + 1 * (j 0).val := rfl
  have e1 : ((((cfg0.win 6).blk t).view.emb j) 1).val = win0_6.index t (1 : Fin 2) * 16 + 1 * (j 1).val := rfl
  have hj0 : (j 0).val < 400 := (j 0).isLt
  have hj1 : (j 1).val < 16 := (j 1).isLt
  have hN : t.val < 50 := lt_of_lt_of_eq t.isLt N_0
  have hp : emitPt (((cfg0.win 6).blk t).view.emb j) = t := Fin.ext (by
    show 25 + ((((cfg0.win 6).blk t).view.emb j) 0).val / 400 = t.val
    rw [e0, i0]; omega)
  have hr : rowIn (((cfg0.win 6).blk t).view.emb j) = j := funext fun a => Fin.ext (by
    match a with
    | ⟨0, _⟩ =>
      show ((((cfg0.win 6).blk t).view.emb j) 0).val % 400 = (j 0).val
      rw [e0, i0]; omega
    | ⟨1, _⟩ =>
      show ((((cfg0.win 6).blk t).view.emb j) 1).val = (j 1).val
      rw [e1, i1]; omega)
  show outBlk m c t j = outBlk m c (emitPt (((cfg0.win 6).blk t).view.emb j)) (rowIn (((cfg0.win 6).blk t).view.emb j))
  rw [hp, hr]

/-- An index of the result is in point t's block iff each coordinate is in the block's range on its axis. -/
theorem mem_blk (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v2).slice (win0_6.rect t)).set ↔ _
  rw [View.set_slice_whole, Rect.mem_set_unit]
  exact Iff.rfl

/-- Every index of the result lies in the block of the emitting point that computes its row. -/
theorem covered (i : S10000x16.Idx) :
    ∃ t : Fin cfg0.N, (cfg0.win 6).flush t = true ∧ i ∈ ((cfg0.win 6).blk t).view.set := by
  have hi0 : (i 0).val < 10000 := idx2_lt0 i
  have hi1 : (i 1).val < 16 := idx2_lt1 i
  have ht : 25 ≤ (emitPt i).val := Nat.le_add_right _ _
  have hi := index_6 (emitPt i) ht
  have i0 : win0_6.index (emitPt i) (0 : Fin 2) = (emitPt i).val - 25 := congrFun hi 0
  have i1 : win0_6.index (emitPt i) (1 : Fin 2) = 0 := congrFun hi 1
  have hv : (emitPt i).val = 25 + (i 0).val / 400 := rfl
  refine ⟨emitPt i, by rw [flush_6]; exact decide_eq_true ht, ?_⟩
  rw [mem_blk]
  intro a
  match a with
  | ⟨0, _⟩ =>
    show win0_6.index (emitPt i) (0 : Fin 2) * 400 ≤ (i 0).val ∧ (i 0).val < win0_6.index (emitPt i) (0 : Fin 2) * 400 + 400
    rw [i0, hv]; omega
  | ⟨1, _⟩ =>
    show win0_6.index (emitPt i) (1 : Fin 2) * 16 ≤ (i 1).val ∧ (i 1).val < win0_6.index (emitPt i) (1 : Fin 2) * 16 + 16
    rw [i1]; omega

/-- The result array after the run. -/
theorem final (c : Dev nD) : (dats m 0 c).arrAt 6 cfg0.N = result m c :=
  (dats m 0 c).arrAt_eq_of_cover 6 (result m c)
    (fun t hf => flushed_eq m c t (of_decide_eq_true ((flush_6 t).symm.trans hf))) covered

/-- The run re-posted: the result array at its function of the arrays the region finds, the arguments unchanged. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Val

end
-- ==== Proof.Bridge.RefRows.lean ====
/-
  The reference at the extended reals, read at an entry.

  Entry (a, e) of x · W1 is ∑ g, x[a, g] · W1[g, e]. Row k of the hidden layer, rectified twice, is the rectifier
  (twice) of the dense row built from row k of the adjacency matrix, the projection and the bias vector; entry
  (k, q) of its product with W2 is the sum over the 64 hidden entries. Entry (r, j) of the result is the
  log-softmax, at j, of the dense row built from row r of the adjacency matrix, that product and the second
  bias vector.
-/
import proofs.«118411_g40973988004062_cont_8to1_b_1328_5_alg».proof.Proof.RefReadP
import proofs.«118411_g40973988004062_cont_8to1_b_1328_5_alg».proof.Proof.LibLogSoftmaxRows
import proofs.«118411_g40973988004062_cont_8to1_b_1328_5_alg».proof.Proof.LibRowExtras

noncomputable section

namespace Cert.ReferenceIdeal.RefRows

open Idealize.ShloMosaic Idealize.ShloMosaic.TcCoe Idealize.ShloMosaic.ValueIdx
open Cert.ReferenceIdeal Cert.ReferenceIdeal.Gen Cert.ReferenceIdeal.ReadP Cert.RowLayers Cert.ChebRows

/-! ## The four products are rows times columns -/

theorem rtc_proj : RowsTimesCols dot_S10000x128_S128x64_S10000x64_1_0_0_1_n_n :=
  ⟨rfl, rfl, lhs_main_v0_0, lhs_main_v0_1, rhs_main_v0_0, rhs_main_v0_1⟩
theorem rtc_agg1 : RowsTimesCols dot_S10000x10000_S10000x64_S10000x64_1_0_0_1_n_n :=
  ⟨rfl, rfl, lhs_main_v1_0, lhs_main_v1_1, rhs_main_v1_0, rhs_main_v1_1⟩
theorem rtc_out2 : RowsTimesCols dot_S10000x64_S64x16_S10000x16_1_0_0_1_n_n :=
  ⟨rfl, rfl, lhs_main_v9_0, lhs_main_v9_1, rhs_main_v9_0, rhs_main_v9_1⟩
theorem rtc_agg2 : RowsTimesCols dot_S10000x10000_S10000x16_S10000x16_1_0_0_1_n_n :=
  ⟨rfl, rfl, lhs_main_v10_0, lhs_main_v10_1, rhs_main_v10_0, rhs_main_v10_1⟩

abbrev zeroE : EReal := Ideal.ofBits .f32 0x00000000#32
abbrev negInfE : EReal := Ideal.ofBits .f32 0xFF800000#32

/-! ## The stages at an entry -/

theorem v0_apply (x0 : (⟨S10000x128, .f32⟩ : BufTy).Contents (Elt Ideal)) (x2 : (⟨S128x64, .f32⟩ : BufTy).Contents (Elt Ideal))
    (a : Fin 10000) (e : Fin 64) :
    val_main_v0 (F := Ideal) x0 x2 (ix2 a e) = ∑ g : Fin 128, x0 (ix2 a g) * x2 (ix2 g e) := by
  unfold val_main_v0
  exact congrFun (rowOf_dotGeneral rtc_proj none x0 x2 a) e

/-- Row k of the hidden layer after both rectifiers. -/
theorem rowOf_v8 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (k : Fin 10000) :
    rowOf (val_main_v8 (F := Ideal) x0 x1 x2 x3) k
      = relu zeroE (relu zeroE (dense (rowOf x1 k) (val_main_v0 (F := Ideal) x0 x2) (vec x3))) := by
  unfold val_main_v8 val_main_v7 val_main_cst_0 val_main_v6 val_main_v5 val_main_cst val_main_v4 val_main_v3 val_main_v2 val_main_v1
  rw [rowOf_maximumf_const, rowOf_maximumf_const, rowOf_dense_host rtc_agg1]
  rfl

theorem v9_apply (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (k : Fin 10000) (q : Fin 16) :
    val_main_v9 (F := Ideal) x0 x1 x2 x3 x4 (ix2 k q)
      = ∑ e : Fin 64, relu zeroE (relu zeroE (dense (rowOf x1 k) (val_main_v0 (F := Ideal) x0 x2) (vec x3))) e * x4 (ix2 e q) := by
  unfold val_main_v9
  refine (congrFun (rowOf_dotGeneral rtc_out2 none _ x4 k) q).trans ?_
  rw [rowOf_v8]

theorem v14_apply (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (r : Fin 10000) (j : Fin 16) :
    val_main_v14 (F := Ideal) x0 x1 x2 x3 x4 x5 (ix2 r j)
      = logSoftmax negInfE (dense (rowOf x1 r) (val_main_v9 (F := Ideal) x0 x1 x2 x3 x4) (vec x5)) j := by
  unfold val_main_v14 val_main_call0_v10 val_main_call0_v9 val_main_call0_v8 val_main_call0_v7 val_main_call0_cst_1 val_main_call0_v6 val_main_call0_v5 val_main_call0_v4 val_main_call0_v3 val_main_call0_v2 val_main_call0_v1 val_main_call0_cst_0 val_main_call0_v0 val_main_call0_cst
  refine (logSoftmax_host_apply (val_main_v13 (F := Ideal) x0 x1 x2 x3 x4 x5) 0xFF800000#32 _ (by decide) _ _ _ _ r j).trans ?_
  unfold val_main_v13 val_main_v12 val_main_v11 val_main_v10
  rw [rowOf_dense_host rtc_agg2]
  rfl

end Cert.ReferenceIdeal.RefRows

end
-- ==== Proof.Bridge.Equal.lean ====
/-
  The fused kernel's result and the reference's result are one function of the arguments, at the extended reals.

  Entry (r, j) of either is the log-softmax, at j, of the row ∑ k adj[r, k] · H[k, ·] + b2, where row k of H is
  ∑ e max(∑ k' adj[k, k'] · s1[k', e] + b1[e], 0) · W2[e, ·] and s1 = x · W1. The kernel computes s1 once, H in 25
  slices of 400 rows and the result in 25 blocks of 400 rows, each from the block of adjacency rows its point
  fetches; the reference computes whole arrays and applies the rectifier twice, which is the rectifier once. No sum
  is re-associated, so the equality holds at every extended real and the inputs' finiteness is not used.
-/
import proofs.«118411_g40973988004062_cont_8to1_b_1328_5_alg».proof.Proof.Bridge.KernelPayloads
import proofs.«118411_g40973988004062_cont_8to1_b_1328_5_alg».proof.Proof.Bridge.KernelBlocks
import proofs.«118411_g40973988004062_cont_8to1_b_1328_5_alg».proof.Proof.Bridge.KernelArray
import proofs.«118411_g40973988004062_cont_8to1_b_1328_5_alg».proof.Proof.Bridge.RefRows

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body Cert.RowLayers Cert.ChebRows

variable (m : (ℓ : Loc nD τ sig) → Buf (Elt Ideal) ℓ)

/-- The six argument arrays as launched, as functions into the extended reals. -/
abbrev argX (c : Dev nD) : S10000x128.Idx → EReal := m ((c : Thread nD τ).loc main_arg0)
abbrev argAdj (c : Dev nD) : S10000x10000.Idx → EReal := m ((c : Thread nD τ).loc main_arg1)
abbrev argW1 (c : Dev nD) : S128x64.Idx → EReal := m ((c : Thread nD τ).loc main_arg2)
abbrev argB1 (c : Dev nD) : S64.Idx → EReal := m ((c : Thread nD τ).loc main_arg3)
abbrev argW2 (c : Dev nD) : S64x16.Idx → EReal := m ((c : Thread nD τ).loc main_arg4)
abbrev argB2 (c : Dev nD) : S16.Idx → EReal := m ((c : Thread nD τ).loc main_arg5)

/-- The rectifier applied twice is the rectifier. -/
theorem relu_relu {J : ℕ} (z : EReal) (f : Fin J → EReal) : relu z (relu z f) = relu z f :=
  funext fun e => max_eq_left (le_max_right _ _)

/-- Row r of the adjacency block of a point whose block index is r / 400 is row r of the adjacency matrix. -/
theorem rowOf_adj (c : Dev nD) (t : Fin cfg0.N) (r : Fin 10000) (ht : t.val % 25 = r.val / 400) :
    rowOf (iblk m c 1 t : S400x10000.Idx → EReal) (⟨r.val % 400, Nat.mod_lt _ (by omega)⟩ : Fin 400)
      = rowOf (argAdj m c) r :=
  funext fun k => (iblk_adj_apply m c t ⟨r.val % 400, Nat.mod_lt _ (by omega)⟩ k r (by
    show r.val = (t.val % 25) * 400 + r.val % 400
    rw [ht]; omega)).trans (congrFun (V_main_arg1 m c) _)

/-- s1 at an entry. -/
theorem proj_apply (c : Dev nD) (a : Fin 10000) (e : Fin 64) :
    proj m c (ix2 a e) = ∑ g : Fin 128, (argX m c) (ix2 a g) * (argW1 m c) (ix2 g e) := by
  unfold proj
  rw [iblk_x, iblk_w1, V_main_arg0, V_main_arg2]
  exact pay1_apply _ _ a e

/-- H at an entry. -/
theorem hid_apply (c : Dev nD) (k : Fin 10000) (q : Fin 16) :
    hid m c (ix2 k q)
      = ∑ e : Fin 64, relu zeroE (dense (rowOf (argAdj m c) k) (proj m c) (vec (argB1 m c))) e
          * (argW2 m c) (ix2 e q) := by
  show hidSlice m c (ptOf (ix2 k q)) (rowIn (ix2 k q)) = _
  unfold hidSlice
  rw [iblk_b1, iblk_w2, V_main_arg4, V_b1]
  refine (pay2_apply _ _ _ _ (⟨k.val % 400, Nat.mod_lt _ (by omega)⟩ : Fin 400) q).trans ?_
  rw [rowOf_adj m c (ptOf (ix2 k q)) k (by show (k.val / 400) % 25 = k.val / 400; have := k.isLt; omega), rowOf_shapeCast_lead]

/-- The result at an entry. -/
theorem result_apply (c : Dev nD) (r : Fin 10000) (j : Fin 16) :
    result m c (ix2 r j)
      = logSoftmax negInfE (dense (rowOf (argAdj m c) r) (hid m c) (vec (argB2 m c))) j := by
  show outBlk m c (emitPt (ix2 r j)) (rowIn (ix2 r j)) = _
  unfold outBlk
  rw [iblk_b2, V_b2]
  refine (pay3_apply _ _ _ (⟨r.val % 400, Nat.mod_lt _ (by omega)⟩ : Fin 400) j).trans ?_
  rw [rowOf_adj m c (emitPt (ix2 r j)) r (by show (25 + r.val / 400) % 25 = r.val / 400; have := r.isLt; omega), rowOf_shapeCast_lead]

open Cert.ReferenceIdeal.ReadP in
/-- The kernel's result is the reference's last stage of the same arguments. -/
theorem result_eq_ref (c : Dev nD) :
    result m c = Cert.ReferenceIdeal.ReadP.val_main_v14 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have hP : proj m c = val_main_v0 (F := Ideal) (m ((c : Thread nD τ).loc main_arg0)) (m ((c : Thread nD τ).loc main_arg2)) := funext fun i => by
    obtain ⟨a, e, rfl⟩ : ∃ (a : Fin 10000) (e : Fin 64), i = ix2 a e := ⟨i 0, i 1, eq_ix2 i⟩
    rw [proj_apply, Cert.ReferenceIdeal.RefRows.v0_apply]
  have hH : hid m c = val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := funext fun i => by
    obtain ⟨k, q, rfl⟩ : ∃ (k : Fin 10000) (q : Fin 16), i = ix2 k q := ⟨i 0, i 1, eq_ix2 i⟩
    rw [hid_apply, Cert.ReferenceIdeal.RefRows.v9_apply, relu_relu, hP]
  funext i
  obtain ⟨r, j, rfl⟩ : ∃ (r : Fin 10000) (j : Fin 16), i = ix2 r j := ⟨i 0, i 1, eq_ix2 i⟩
  rw [result_apply, Cert.ReferenceIdeal.RefRows.v14_apply, hH]

end Cert.KernelIdeal.Val

end
-- ==== Proof.lean ====
/-
  A two-layer graph convolution over a dense adjacency matrix,
      out = log_softmax(adj · (max(adj · (x · W1) + b1, 0) · W2) + b2),
  computed by one pipelined kernel over 50 grid points against the whole-array reference.

  Point 0 computes s1 = x · W1 into a scratch buffer; points 0 to 24 compute H = max(adj · s1 + b1, 0) · W2 in
  slices of 400 rows into a second scratch buffer; points 25 to 49 stream the adjacency matrix again and write
  the result in blocks of 400 rows, each row the log-softmax of adj_row · H + b2. The second scratch buffer is never
  initialised, so between points it is known only on the rows stored so far; by point 25 that is every row.

  The frames of the word-level and the idealized kernel are one proof, generic in the float instance, stated
  once in each program's namespace (Proof/BitsBody, Proof/IdealBody). The reference's frame is its run with the
  result dropped. Nothing was rewritten by the ideal pass. At the extended reals both programs compute the
  same sums in the same association (the reference applies the rectifier twice, which is the rectifier once), so
  the results agree at every input: the inputs' finiteness is not used.
-/
import proofs.«118411_g40973988004062_cont_8to1_b_1328_5_alg».proof.Defs
import proofs.«118411_g40973988004062_cont_8to1_b_1328_5_alg».proof.Proof.Gen.Kernel
import proofs.«118411_g40973988004062_cont_8to1_b_1328_5_alg».proof.Proof.Gen.KernelIdeal
import proofs.«118411_g40973988004062_cont_8to1_b_1328_5_alg».proof.Proof.Gen.ReferenceIdeal
import proofs.«118411_g40973988004062_cont_8to1_b_1328_5_alg».proof.Proof.Gen.Pre_finite_inputs
import proofs.«118411_g40973988004062_cont_8to1_b_1328_5_alg».proof.Proof.BitsBody.Sound
import proofs.«118411_g40973988004062_cont_8to1_b_1328_5_alg».proof.Proof.IdealBody.Sound
import proofs.«118411_g40973988004062_cont_8to1_b_1328_5_alg».proof.Proof.Bridge.Equal
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_kernelIdeal : Cert.frame_KernelIdeal := fun m ρ _ => Cert.KernelIdeal.Body.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the extended reals the kernel's result array ends at the function of the arguments that the reference's
    last stage is, from memories agreeing on the arguments. -/
theorem algebraic : Cert.algebraic_KernelIdeal_ReferenceIdeal := by
  intro m ρ m' ρ' _ hagree
  refine ⟨fun c => Cert.KernelIdeal.Val.result m c, Cert.KernelIdeal.Val.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, (hagree c).1, (hagree c).2.1, (hagree c).2.2.1, (hagree c).2.2.2.1,
    (hagree c).2.2.2.2.1, (hagree c).2.2.2.2.2]
  exact (Cert.KernelIdeal.Val.result_eq_ref m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
